-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024x4x1024, .f32⟩
  | .hbm, ⟨9, _⟩ => ⟨S1024x4096, .f32⟩
  | .hbm, ⟨10, _⟩ => ⟨S2048x4096, .f32⟩
  | .hbm, ⟨11, _⟩ => ⟨S2048x4096, .bf16⟩
  | .hbm, ⟨12, _⟩ => ⟨S1x4096, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  concatenates_S1024x4096_S1024x4096_S2048x4096_d0 : Shape.Concatenates [S1024x4096, S1024x4096] S2048x4096 0
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024x16384, .f32⟩
  | .hbm, ⟨7, _⟩ => ⟨S4x16384x1024, .f32⟩
  | .hbm, ⟨8, _⟩ => ⟨S4x1024x16384, .f32⟩
  | .hbm, ⟨9, _⟩ => ⟨S4x16384x1024, .f32⟩
  | .hbm, ⟨10, _⟩ => ⟨S4x16384x1024, .f32⟩
  | .hbm, ⟨11, _⟩ => ⟨S4x1x1024, .f32⟩
  | .hbm, ⟨12, _⟩ => ⟨S4x16384x1024, .f32⟩
  | .hbm, ⟨13, _⟩ => ⟨S4x16384x1024, .f32⟩
  | .hbm, ⟨14, _⟩ => ⟨S1x16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S1x16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S1x16384x1024, .f32⟩
  | .hbm, ⟨35, _⟩ => ⟨S16384x1024, .f32⟩
  | .hbm, ⟨36, _⟩ => ⟨S16384x1024, .f32⟩
  | .hbm, ⟨37, _⟩ => ⟨S1x16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.CellSpec.lean ====
/-
  The LSTM cell that both programs compute, as functions of the six argument arrays, element by element, on the
  extended reals.

  For a batch row `b`, a hidden unit `h` and a gate `g` (0 input, 1 forget, 2 candidate, 3 output) the gate's
  pre-activation is
      pre g b h = Σ_k Wi[g,h,k] · x[b,k]  +  Σ_k Wh[g,h,k] · hprev[b,k]  +  bias[g,h],
  the new cell state is  σ(pre 1) · cprev[b,h] + σ(pre 0) · tanh(pre 2),  and the new hidden state is
  σ(pre 3) · tanh(new cell), with σ x = 1 / (1 + e⁻ˣ) and tanh read on the extended reals as the ideal instance reads
  them (σ ⊥ = 0, σ ⊤ = 1, tanh ⊥ = −1, tanh ⊤ = 1).

  The one algebraic law between the two programs is `dot_concat`: a dot product over 2048 terms whose two factors are
  each a concatenation of two 1024-term halves is the sum of the two halves' dot products. Only commutativity and
  associativity of + and · on the extended reals are used, so no finiteness of the arguments is needed.
-/
import Idealize.ShloMosaic.PureOps.Ideal
import Idealize.ShloMosaic.Lib.ValueIdx

noncomputable section

open scoped BigOperators

namespace Cert.LstmCell

open Idealize.ShloMosaic Idealize.ShloMosaic.ValueIdx

/-- The shape of `x`, `hprev`, `cprev` and of both results: batch × hidden. -/
abbrev SBatch : Shape := ⟨2, ![16384, 1024]⟩
/-- The shape of the stacked gate weights `Wi`, `Wh`: gate × hidden unit × contracted input. -/
abbrev SWeight : Shape := ⟨3, ![4, 1024, 1024]⟩
/-- The shape of the stacked gate biases: gate × hidden unit. -/
abbrev SBias : Shape := ⟨2, ![4, 1024]⟩

variable (x hp cp : SBatch.Idx → EReal) (wi wh : SWeight.Idx → EReal) (bias : SBias.Idx → EReal)

/-- Gate `g`'s pre-activation at batch row `b` and hidden unit `h`. -/
def gatePre (g : Fin 4) (b : Fin 16384) (h : Fin 1024) : EReal :=
  (∑ k : Fin 1024, wi (ix3 g h k) * x (ix2 b k)) + (∑ k : Fin 1024, wh (ix3 g h k) * hp (ix2 b k)) + bias (ix2 g h)

/-- The new cell state: forget gate times the old cell state, plus input gate times candidate. -/
def newCell (b : Fin 16384) (h : Fin 1024) : EReal :=
  Ideal.logistic (gatePre x hp wi wh bias 1 b h) * cp (ix2 b h)
    + Ideal.logistic (gatePre x hp wi wh bias 0 b h) * Ideal.tanh (gatePre x hp wi wh bias 2 b h)

/-- The new hidden state: output gate times tanh of the new cell state. -/
def newHidden (b : Fin 16384) (h : Fin 1024) : EReal :=
  Ideal.logistic (gatePre x hp wi wh bias 3 b h) * Ideal.tanh (newCell x hp cp wi wh bias b h)

/-- The new cell state as a whole array. -/
def cellArr : SBatch.Idx → EReal := fun i => newCell x hp cp wi wh bias (i 0) (i 1)

/-- The new hidden state as a whole array. -/
def hiddenArr : SBatch.Idx → EReal := fun i => newHidden x hp cp wi wh bias (i 0) (i 1)

/-- A dot product of two concatenations is the sum of the halves' dot products: if `L` is `a` followed by `b` and
    `R` is `u` followed by `v` (each half 1024 long), then Σ_{k<2048} L k · R k = Σ_k u k · a k + Σ_k v k · b k.
    (The factors are swapped on the right because one program multiplies activation by weight and the other weight by
    activation.) -/
theorem dot_concat (L R : Fin 2048 → EReal) (a b u v : Fin 1024 → EReal)
    (hLa : ∀ k : Fin 1024, L ⟨k.val, by have := k.isLt; omega⟩ = a k)
    (hLb : ∀ k : Fin 1024, L ⟨1024 + k.val, by have := k.isLt; omega⟩ = b k)
    (hRu : ∀ k : Fin 1024, R ⟨k.val, by have := k.isLt; omega⟩ = u k)
    (hRv : ∀ k : Fin 1024, R ⟨1024 + k.val, by have := k.isLt; omega⟩ = v k) :
    ∑ k : Fin 2048, L k * R k = (∑ k : Fin 1024, u k * a k) + ∑ k : Fin 1024, v k * b k := by
  rw [show (∑ k : Fin 2048, L k * R k) = ∑ k : Fin (1024 + 1024), L k * R k from rfl, Fin.sum_univ_add]
  refine congrArg₂ (· + ·) (Finset.sum_congr rfl fun k _ => ?_) (Finset.sum_congr rfl fun k _ => ?_)
  · rw [show (Fin.castAdd 1024 k : Fin 2048) = ⟨k.val, by have := k.isLt; omega⟩ from Fin.ext rfl, hLa, hRu, mul_comm]
  · rw [show (Fin.natAdd 1024 k : Fin 2048) = ⟨1024 + k.val, by have := k.isLt; omega⟩ from Fin.ext rfl, hLb, hRv, mul_comm]

end Cert.LstmCell

end
-- ==== Proof.RefCell.lean ====
/-
  The reference program is one step of an LSTM cell on whole arrays. It contracts the stacked gate weights with the
  input and with the previous hidden state (two dot products over 1024 terms for each gate, batch row and hidden unit),
  adds the two and the bias broadcast along the batch axis, cuts the result into its four gate planes, and applies the
  gate nonlinearities: the sigmoid, spelled 1 / (1 + exp (−p)), on planes 0, 1 and 3 and tanh on plane 2. The new cell
  state is  σ(plane 1) · cprev + σ(plane 0) · tanh(plane 2)  and the new hidden state is  σ(plane 3) · tanh(new cell).

  This file shows that, read on the extended reals, the two results of the reference are exactly the specification's
  cell: plane g at (b, h) is the specification's pre-activation of gate g (the transposes and reshapes only rename
  indices), the spelled sigmoid is the ideal logistic function (the constant's bit pattern is the real number one), and
  the remaining operations are elementwise.
-/
import proofs.«135091_j66984309948631_2_alg».proof.Proof.Gen.ReferenceIdeal.Read
import proofs.«135091_j66984309948631_2_alg».proof.Proof.CellSpec
import Idealize.ShloMosaic.Lib.IdealHost
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-- The stacked pre-activations: plane `g` of the sum of the two contractions and the broadcast bias, at batch row
    `b` and hidden unit `h`, is the specification's pre-activation of gate `g`. The contraction result is laid out
    gate × hidden × batch and then transposed, so its element at (g, b, h) pairs row (g, h) of the weights with row `b`
    of the activations; the bias is read at (g, h) whatever the batch row. -/
theorem pre_eq (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (g : Fin 4) (b : Fin 16384) (h : Fin 1024) :
    val_main_v7 (F := Ideal) x0 x1 x3 x4 x5 (ix3 g b h) = Cert.LstmCell.gatePre x0 x1 x3 x5 x4 g b h := by
  have el0 : ∀ k : Fin 1024, lidx_main_v0 (idx_main_v1 (ix3 g b h)) k = ix3 g h k := fun k =>
    funext fun a => Fin.ext (by match a with | ⟨0, _⟩ => rfl | ⟨1, _⟩ => rfl | ⟨2, _⟩ => rfl)
  have er0 : ∀ k : Fin 1024, ridx_main_v0 (idx_main_v1 (ix3 g b h)) k = ix2 b k := fun k =>
    funext fun a => Fin.ext (by match a with | ⟨0, _⟩ => rfl | ⟨1, _⟩ => rfl)
  have el2 : ∀ k : Fin 1024, lidx_main_v2 (idx_main_v3 (ix3 g b h)) k = ix3 g h k := fun k =>
    funext fun a => Fin.ext (by match a with | ⟨0, _⟩ => rfl | ⟨1, _⟩ => rfl | ⟨2, _⟩ => rfl)
  have er2 : ∀ k : Fin 1024, ridx_main_v2 (idx_main_v3 (ix3 g b h)) k = ix2 b k := fun k =>
    funext fun a => Fin.ext (by match a with | ⟨0, _⟩ => rfl | ⟨1, _⟩ => rfl)
  have eb : idx_main_v5 (idx_main_v6 (ix3 g b h)) = ix2 g h :=
    funext fun a => Fin.ext (by match a with | ⟨0, _⟩ => rfl | ⟨1, _⟩ => rfl)
  rw [val_main_v7_apply, val_main_v4_apply, val_main_v1_apply, val_main_v3_apply, val_main_v0_apply, val_main_v2_apply,
    val_main_v6_apply, val_main_v5_apply, eb]
  simp only [el0, er0, el2, er2]
  rfl

/-- Plane 0 of the stacked pre-activations, reshaped to batch × hidden. -/
theorem plane0 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (b : Fin 16384) (h : Fin 1024) :
    val_main_v9 (F := Ideal) x0 x1 x3 x4 x5 (ix2 b h) = val_main_v7 (F := Ideal) x0 x1 x3 x4 x5 (ix3 0 b h) := by
  rw [val_main_v9_apply, val_main_v8_apply]
  congr 1
  funext a
  apply Fin.ext
  have hb : b.val < 16384 := b.isLt
  have hh : h.val < 1024 := h.isLt
  match a with
  | ⟨0, _⟩ => rfl
  | ⟨1, _⟩ => show (b.val * 1024 + h.val) / 1024 % 16384 = b.val; omega
  | ⟨2, _⟩ => show (b.val * 1024 + h.val) % 1024 = h.val; omega

/-- Plane 1 of the stacked pre-activations, reshaped to batch × hidden. -/
theorem plane1 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (b : Fin 16384) (h : Fin 1024) :
    val_main_v17 (F := Ideal) x0 x1 x3 x4 x5 (ix2 b h) = val_main_v7 (F := Ideal) x0 x1 x3 x4 x5 (ix3 1 b h) := by
  rw [val_main_v17_apply, val_main_v16_apply]
  congr 1
  funext a
  apply Fin.ext
  have hb : b.val < 16384 := b.isLt
  have hh : h.val < 1024 := h.isLt
  match a with
  | ⟨0, _⟩ => rfl
  | ⟨1, _⟩ => show (b.val * 1024 + h.val) / 1024 % 16384 = b.val; omega
  | ⟨2, _⟩ => show (b.val * 1024 + h.val) % 1024 = h.val; omega

/-- Plane 2 of the stacked pre-activations, reshaped to batch × hidden. -/
theorem plane2 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (b : Fin 16384) (h : Fin 1024) :
    val_main_v25 (F := Ideal) x0 x1 x3 x4 x5 (ix2 b h) = val_main_v7 (F := Ideal) x0 x1 x3 x4 x5 (ix3 2 b h) := by
  rw [val_main_v25_apply, val_main_v24_apply]
  congr 1
  funext a
  apply Fin.ext
  have hb : b.val < 16384 := b.isLt
  have hh : h.val < 1024 := h.isLt
  match a with
  | ⟨0, _⟩ => rfl
  | ⟨1, _⟩ => show (b.val * 1024 + h.val) / 1024 % 16384 = b.val; omega
  | ⟨2, _⟩ => show (b.val * 1024 + h.val) % 1024 = h.val; omega

/-- Plane 3 of the stacked pre-activations, reshaped to batch × hidden. -/
theorem plane3 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (b : Fin 16384) (h : Fin 1024) :
    val_main_v28 (F := Ideal) x0 x1 x3 x4 x5 (ix2 b h) = val_main_v7 (F := Ideal) x0 x1 x3 x4 x5 (ix3 3 b h) := by
  rw [val_main_v28_apply, val_main_v27_apply]
  congr 1
  funext a
  apply Fin.ext
  have hb : b.val < 16384 := b.isLt
  have hh : h.val < 1024 := h.isLt
  match a with
  | ⟨0, _⟩ => rfl
  | ⟨1, _⟩ => show (b.val * 1024 + h.val) / 1024 % 16384 = b.val; omega
  | ⟨2, _⟩ => show (b.val * 1024 + h.val) % 1024 = h.val; omega

/-- The sigmoid as the reference spells it, 1 / (1 + exp (−p)) with the constant one given by its bit pattern, is the
    ideal logistic function. -/
theorem logistic_spelled (p : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf p)))
      = Ideal.logistic p := by
  rw [Ideal.hostDivf_def, Ideal.addf_def, Ideal.hostUnary_exp_def, Ideal.hostNegf_def, Ideal.negf_def, Ideal.ofBits_def,
    Ideal.ofBits_one_f32]
  rfl

/-- The first spelled sigmoid, of plane 0. -/
theorem sigmoid0 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (i : S16384x1024.Idx) :
    val_main_v15 (F := Ideal) x0 x1 x3 x4 x5 i = Ideal.logistic (val_main_v9 (F := Ideal) x0 x1 x3 x4 x5 i) := by
  rw [val_main_v15_apply, val_main_v14_apply, val_main_cst_0_apply, val_main_v13_apply, val_main_v12_apply, val_main_cst_apply, val_main_v11_apply, val_main_v10_apply]
  exact logistic_spelled _

/-- The second spelled sigmoid, of plane 1. -/
theorem sigmoid1 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (i : S16384x1024.Idx) :
    val_main_v23 (F := Ideal) x0 x1 x3 x4 x5 i = Ideal.logistic (val_main_v17 (F := Ideal) x0 x1 x3 x4 x5 i) := by
  rw [val_main_v23_apply, val_main_v22_apply, val_main_cst_2_apply, val_main_v21_apply, val_main_v20_apply, val_main_cst_1_apply, val_main_v19_apply, val_main_v18_apply]
  exact logistic_spelled _

/-- The third spelled sigmoid, of plane 3. -/
theorem sigmoid3 (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (i : S16384x1024.Idx) :
    val_main_v34 (F := Ideal) x0 x1 x3 x4 x5 i = Ideal.logistic (val_main_v28 (F := Ideal) x0 x1 x3 x4 x5 i) := by
  rw [val_main_v34_apply, val_main_v33_apply, val_main_cst_4_apply, val_main_v32_apply, val_main_v31_apply, val_main_cst_3_apply, val_main_v30_apply, val_main_v29_apply]
  exact logistic_spelled _

/-- The reference's new cell state at batch row `b` and hidden unit `h` is the specification's. -/
theorem cell_at (x0 x1 x2 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (b : Fin 16384) (h : Fin 1024) :
    val_main_v37 (F := Ideal) x0 x1 x2 x3 x4 x5 (ix2 b h) = Cert.LstmCell.newCell x0 x1 x2 x3 x5 x4 b h := by
  rw [val_main_v37_apply, val_main_v35_apply, val_main_v36_apply, val_main_v26_apply, sigmoid1, sigmoid0, plane0, plane1,
    plane2, pre_eq, pre_eq, pre_eq]
  rfl

/-- The reference's second result, the new cell state, is the specification's cell state. -/
theorem cell_eq (x0 x1 x2 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) :
    val_main_v37 (F := Ideal) x0 x1 x2 x3 x4 x5 = Cert.LstmCell.cellArr x0 x1 x2 x3 x5 x4 := by
  funext i
  obtain ⟨b, h, rfl⟩ : ∃ (b : Fin 16384) (h : Fin 1024), i = ix2 b h := ⟨i 0, i 1, eq_ix2 i⟩
  exact cell_at x0 x1 x2 x3 x4 x5 b h

/-- The reference's first result, the new hidden state, is the specification's hidden state. -/
theorem hidden_eq (x0 x1 x2 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) :
    val_main_v39 (F := Ideal) x0 x1 x2 x3 x4 x5 = Cert.LstmCell.hiddenArr x0 x1 x2 x3 x5 x4 := by
  funext i
  obtain ⟨b, h, rfl⟩ : ∃ (b : Fin 16384) (h : Fin 1024), i = ix2 b h := ⟨i 0, i 1, eq_ix2 i⟩
  rw [val_main_v39_apply, val_main_v38_apply, sigmoid3, plane3, pre_eq, cell_at]
  rfl

end Cert.ReferenceIdeal.RefValue

end
-- ==== Proof.GateAt.lean ====
/-
  The kernel body's arithmetic at one element of a block.

  The body concatenates a block's rows of `x` and of `hprev` along the lanes into [256, 2048] activations, and for
  each gate multiplies them with a [2048, 1024] column slice of the stacked weights, adds the gate's bias row, and
  applies σ or tanh. Read at element (p, q) on the extended reals:
    * the concatenation at column k is `x`'s row entry for k < 1024 and `hprev`'s at k − 1024 otherwise
      (`act_fst`, `act_snd`);
    * the matrix product into a zero accumulator is the plain sum over the 2048 contracted positions (`matmul_at`);
    * so a gate's pre-activation is the sum of two 1024-term dot products plus the bias entry (`gate_at`, by the
      specification's `dot_concat`);
    * the stored cell state and hidden state are the cell's formulas over those (`cell_at`, `hidden_at`).
  Format changes (f32 → bf16) are the identity on the extended reals, so nothing is lost in the casts.
-/
import proofs.«135091_j66984309948631_2_alg».proof.Proof.Gen.KernelIdeal.Skeleton
import proofs.«135091_j66984309948631_2_alg».proof.Proof.CellSpec
import Idealize.ShloMosaic.Lib.Pipeline.Value
import Idealize.ShloMosaic.Lib.ValueIdx
import Idealize.ShloMosaic.PureOps.Ideal.Laws

noncomputable section

open scoped BigOperators

namespace Cert.KernelIdeal.Cell

open Cert.KernelIdeal Cert.KernelIdeal.Gen Idealize.ShloMosaic Idealize.ShloMosaic.ValueIdx

/-! ## The concatenated activations -/

/-- Columns below 1024 of the concatenation are the first operand's. -/
theorem act_fst (v0 v2 : Vec Ideal S256x1024 .f32) (p : Fin 256) (k : Fin 1024) :
    k0_pay2 (F := Ideal) v0 v2 (ix2 p (⟨k.val, by have := k.isLt; omega⟩ : Fin 2048)) = v0 (ix2 p k) := by
  unfold k0_pay2
  exact concatenate_pair_apply_left _ _ _ concatenates_S256x1024_S256x1024_S256x2048_d1 _ rfl (ix2 p k)
    (fun b => by match b with | ⟨0, _⟩ => rfl | ⟨1, _⟩ => rfl)

/-- Columns from 1024 on are the second operand's, 1024 columns to the left. -/
theorem act_snd (v0 v2 : Vec Ideal S256x1024 .f32) (p : Fin 256) (k : Fin 1024) :
    k0_pay2 (F := Ideal) v0 v2 (ix2 p (⟨1024 + k.val, by have := k.isLt; omega⟩ : Fin 2048)) = v2 (ix2 p k) := by
  unfold k0_pay2
  exact concatenate_pair_apply_right _ _ _ concatenates_S256x1024_S256x1024_S256x2048_d1 _ rfl rfl (ix2 p k)
    (fun b hb => by
      match b with
      | ⟨0, _⟩ => rfl
      | ⟨1, _⟩ => exact absurd rfl hb)
    (by show k.val + 1024 = 1024 + k.val; omega)

/-! ## The matrix product at an element -/

theorem lhs_row (i : S256x1024.Idx) (c : dot_S256x2048_S2048x1024_S256x1024_1_0_0_1_n_n.contr.Idx) :
    (dot_S256x2048_S2048x1024_S256x1024_1_0_0_1_n_n.lhsIdx i c 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_contr (i : S256x1024.Idx) (c : dot_S256x2048_S2048x1024_S256x1024_1_0_0_1_n_n.contr.Idx) :
    (dot_S256x2048_S2048x1024_S256x1024_1_0_0_1_n_n.lhsIdx i c 1).val = (c ⟨0, by decide⟩).val :=
  dot_S256x2048_S2048x1024_S256x1024_1_0_0_1_n_n.lhsIdx_val_of_single rfl i c
theorem rhs_contr (i : S256x1024.Idx) (c : dot_S256x2048_S2048x1024_S256x1024_1_0_0_1_n_n.contr.Idx) :
    (dot_S256x2048_S2048x1024_S256x1024_1_0_0_1_n_n.rhsIdx i c 0).val = (c ⟨0, by decide⟩).val :=
  dot_S256x2048_S2048x1024_S256x1024_1_0_0_1_n_n.rhsIdx_val_of_single rfl i c
theorem rhs_col (i : S256x1024.Idx) (c : dot_S256x2048_S2048x1024_S256x1024_1_0_0_1_n_n.contr.Idx) :
    (dot_S256x2048_S2048x1024_S256x1024_1_0_0_1_n_n.rhsIdx i c 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The [256, 2048] × [2048, 1024] product into a zero accumulator, at (p, q): Σ_k a[p,k] · w[k,q]. -/
theorem matmul_at (a : FVec Ideal S256x2048 .bf16) (w : FVec Ideal S2048x1024 .bf16) (p : Fin 256) (q : Fin 1024) :
    matmul dot_S256x2048_S2048x1024_S256x1024_1_0_0_1_n_n none a w (constant (F := Ideal) S256x1024 .f32 0x00000000#32) (ix2 p q)
      = ∑ k : Fin 2048, a (ix2 p k) * w (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact lhs_row _ _
    | ⟨1, _⟩ => exact (lhs_contr _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (rhs_contr _ _).trans hk
    | ⟨1, _⟩ => exact rhs_col _ _)
  rw [el, er]

/-! ## One gate's pre-activation -/

/-- A gate's pre-activation at (p, q) from the block rows `v0` (of x), `v2` (of hprev), the gate's weight slice `w`
    ([2048, 1024]: rows below 1024 multiply x, the others hprev) and its bias row `bv`. -/
def gateSum (v0 v2 : Vec Ideal S256x1024 .f32) (w : Vec Ideal S2048x1024 .bf16) (bv : Vec Ideal S1x1024 .f32)
    (p : Fin 256) (q : Fin 1024) : EReal :=
  (∑ k : Fin 1024, w (ix2 (⟨k.val, by have := k.isLt; omega⟩ : Fin 2048) q) * v0 (ix2 p k))
    + (∑ k : Fin 1024, w (ix2 (⟨1024 + k.val, by have := k.isLt; omega⟩ : Fin 2048) q) * v2 (ix2 p k))
    + bv (ix2 (0 : Fin 1) q)

theorem gate_at (v0 v2 : Vec Ideal S256x1024 .f32) (w : Vec Ideal S2048x1024 .bf16) (bv : Vec Ideal S1x1024 .f32)
    (p : Fin 256) (q : Fin 1024) :
    addf (matmul dot_S256x2048_S2048x1024_S256x1024_1_0_0_1_n_n none (k0_pay2 (F := Ideal) v0 v2) (shapeCast S2048x1024 w shapeCasts_S2048x1024_S2048x1024 : FVec Ideal S2048x1024 .bf16)
        (constant (F := Ideal) S256x1024 .f32 0x00000000#32))
      (broadcastTo S256x1024 (shapeCast S1x1024 bv shapeCasts_S1x1024_S1x1024) broadcasts_S1x1024_S256x1024) (ix2 p q)
    = gateSum v0 v2 w bv p q := by
  rw [addf_apply, shapeCast_self, shapeCast_self, matmul_at]
  have hb : broadcastTo S256x1024 bv broadcasts_S1x1024_S256x1024 (ix2 p q) = bv (ix2 (0 : Fin 1) q) :=
    broadcastTo_apply bv _ (ix2 p q) (ix2 (0 : Fin 1) q) (fun a => by
      match a with
      | ⟨0, _⟩ => show (0 : Nat) = if (1 : Nat) = 1 then 0 else _; rw [if_pos rfl]
      | ⟨1, _⟩ => show q.val = if (1024 : Nat) = 1 then 0 else q.val; rw [if_neg (by decide)])
  rw [hb]
  unfold gateSum
  exact congrArg (· + bv (ix2 (0 : Fin 1) q))
    (Cert.LstmCell.dot_concat (fun k => k0_pay2 (F := Ideal) v0 v2 (ix2 p k)) (fun k => w (ix2 k q)) _ _ _ _
      (fun k => act_fst v0 v2 p k) (fun k => act_snd v0 v2 p k) (fun _ => rfl) (fun _ => rfl))

/-! ## The two stored values -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- The new cell state the body stores, at (p, q): the columns 1024… of the weights and bias are the forget gate's, the
    columns 0… the input gate's, the columns 2048… the candidate's. -/
theorem cell_at (v0 v2 : Vec Ideal S256x1024 .f32) (v5 : Vec Ideal S2048x1024 .bf16) (v7 : Vec Ideal S1x1024 .f32)
    (v13 : Vec Ideal S2048x1024 .bf16) (v15 : Vec Ideal S1x1024 .f32) (v22 : Vec Ideal S2048x1024 .bf16) (v24 : Vec Ideal S1x1024 .f32)
    (v30 : Vec Ideal S256x1024 .f32) (p : Fin 256) (q : Fin 1024) :
    k0_pay3 (F := Ideal) v0 v2 v5 v7 v13 v15 v22 v24 v30 (ix2 p q)
      = Ideal.logistic (gateSum v0 v2 v22 v24 p q) * v30 (ix2 p q)
        + Ideal.logistic (gateSum v0 v2 v5 v7 p q) * Ideal.tanh (gateSum v0 v2 v13 v15 p q) := by
  unfold k0_pay3
  refine (addf_apply _ _ _).trans ?_
  refine congrArg₂ (· + ·) ?_ ?_
  · refine (mulf_apply _ _ _).trans ?_
    exact congrArg (· * v30 (ix2 p q)) ((logistic_at _ _).trans (congrArg Ideal.logistic (gate_at v0 v2 v22 v24 p q)))
  · refine (mulf_apply _ _ _).trans ?_
    exact congrArg₂ (· * ·) ((logistic_at _ _).trans (congrArg Ideal.logistic (gate_at v0 v2 v5 v7 p q)))
      ((tanh_at _ _).trans (congrArg Ideal.tanh (gate_at v0 v2 v13 v15 p q)))

/-- The new hidden state the body stores, at (p, q), from the new cell state `cn`: the columns 3072… are the output
    gate's. -/
theorem hidden_at (v0 v2 : Vec Ideal S256x1024 .f32) (cn : FVec Ideal S256x1024 .f32) (v33 : Vec Ideal S2048x1024 .bf16)
    (v35 : Vec Ideal S1x1024 .f32) (p : Fin 256) (q : Fin 1024) :
    k0_pay1 (F := Ideal) (k0_pay2 v0 v2) cn (k0_pay4 v33) v35 (ix2 p q)
      = Ideal.logistic (gateSum v0 v2 v33 v35 p q) * Ideal.tanh (cn (ix2 p q)) := by
  unfold k0_pay1 k0_pay4
  refine (mulf_apply _ _ _).trans ?_
  exact congrArg₂ (· * ·) ((logistic_at _ _).trans (congrArg Ideal.logistic (gate_at v0 v2 v33 v35 p q))) (tanh_at _ _)

end Cert.KernelIdeal.Cell

end
-- ==== Proof.StackedWeights.lean ====
/-
  What the kernel's weight and bias windows hold when the region is entered.

  Before the call, the host lays the two stacked weight arrays out for a lane-concatenated contraction: each
  [4, 1024, 1024] array (gate, hidden unit, contracted input) is transposed to (contracted input, gate, hidden unit),
  flattened to [1024, 4096] with column g·1024 + h, and the two are stacked along the rows into [2048, 4096] — rows below
  1024 come from `Wi`, the others from `Wh` — and narrowed to bf16, which is the identity on the extended reals. The bias
  [4, 1024] is flattened to one row [1, 4096] with the same column numbering. So
      stacked[k, g·1024 + h] = Wi[g, h, k],   stacked[1024 + k, g·1024 + h] = Wh[g, h, k],   row[0, g·1024 + h] = bias[g, h].
-/
import proofs.«135091_j66984309948631_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Cell

open Cert.KernelIdeal Cert.KernelIdeal.Gen Idealize.ShloMosaic Idealize.ShloMosaic.TcCoe Idealize.ShloMosaic.ValueIdx
open Idealize.SL.Sem Idealize.ShloMosaic.StableHlo

/-- One stacked weight array laid out for the contraction: [1024, 4096], row = contracted input, column = gate·1024 + unit. -/
def laidOut (wt : FVec Ideal S4x1024x1024 .f32) : FVec Ideal S1024x4096 .f32 :=
  shapeCast _ (transpose S1024x4x1024 [2, 0, 1] wt transposes_S4x1024x1024_S1024x4x1024_2_0_1) shapeCasts_S1024x4x1024_S1024x4096

/-- The two laid-out weight arrays stacked along the rows, as bf16. -/
def stacked (wi wh : FVec Ideal S4x1024x1024 .f32) : FVec Ideal S2048x4096 .bf16 :=
  truncf .bf16 (concatenate S2048x4096 0 [⟨S1024x4096, laidOut wi⟩, ⟨S1024x4096, laidOut wh⟩] concatenates_S1024x4096_S1024x4096_S2048x4096_d0) bitsLt_bf16_f32

/-- The bias as one row of 4096 columns. -/
def biasRow (bs : FVec Ideal S4x1024 .f32) : FVec Ideal S1x4096 .f32 :=
  shapeCast _ bs shapeCasts_S4x1024_S1x4096

/-- A laid-out array at (k, g·1024 + h) is the stacked array at (g, h, k). -/
theorem laidOut_at (wt : FVec Ideal S4x1024x1024 .f32) (k : Fin 1024) (n : Fin 4096) (g : Fin 4) (h : Fin 1024)
    (hn : n.val = g.val * 1024 + h.val) : laidOut wt (ix2 k n) = wt (ix3 g h k) := by
  unfold laidOut
  refine (shapeCast_apply _ shapeCasts_S1024x4x1024_S1024x4096 (ix2 k n) (ix3 k g h) ?_).trans ?_
  · rewrite [Shape.rowMajor_val_three, Shape.rowMajor_val_two]
    show (k.val * 4 + g.val) * 1024 + h.val = k.val * 4096 + n.val
    omega
  · exact transpose_apply [2, 0, 1] wt transposes_S4x1024x1024_S1024x4x1024_2_0_1 (ix3 k g h) (ix3 g h k) (fun b => match b with
      | ⟨0, _⟩ => rfl
      | ⟨1, _⟩ => rfl
      | ⟨2, _⟩ => rfl)

/-- Rows below 1024 of the stack are `Wi`'s. -/
theorem stacked_top (wi wh : FVec Ideal S4x1024x1024 .f32) (k : Fin 1024) (n : Fin 4096) (g : Fin 4) (h : Fin 1024)
    (hn : n.val = g.val * 1024 + h.val) :
    stacked wi wh (ix2 (⟨k.val, by have := k.isLt; omega⟩ : Fin 2048) n) = wi (ix3 g h k) := by
  unfold stacked
  refine (truncf_apply _ bitsLt_bf16_f32 _).trans ?_
  refine (concatenate_pair_apply_left _ _ _ concatenates_S1024x4096_S1024x4096_S2048x4096_d0 _ rfl (ix2 k n)
    (fun b => by match b with | ⟨0, _⟩ => rfl | ⟨1, _⟩ => rfl)).trans ?_
  exact laidOut_at wi k n g h hn

/-- Rows from 1024 on are `Wh`'s. -/
theorem stacked_bot (wi wh : FVec Ideal S4x1024x1024 .f32) (k : Fin 1024) (n : Fin 4096) (g : Fin 4) (h : Fin 1024)
    (hn : n.val = g.val * 1024 + h.val) :
    stacked wi wh (ix2 (⟨1024 + k.val, by have := k.isLt; omega⟩ : Fin 2048) n) = wh (ix3 g h k) := by
  unfold stacked
  refine (truncf_apply _ bitsLt_bf16_f32 _).trans ?_
  refine (concatenate_pair_apply_right _ _ _ concatenates_S1024x4096_S1024x4096_S2048x4096_d0 _ rfl rfl (ix2 k n)
    (fun b hb => by
      match b with
      | ⟨0, _⟩ => exact absurd rfl hb
      | ⟨1, _⟩ => rfl)
    (by show k.val + 1024 = 1024 + k.val; omega)).trans ?_
  exact laidOut_at wh k n g h hn

/-- The bias row at column g·1024 + h is the bias at (g, h). -/
theorem biasRow_at (bs : FVec Ideal S4x1024 .f32) (n : Fin 4096) (g : Fin 4) (h : Fin 1024)
    (hn : n.val = g.val * 1024 + h.val) : biasRow bs (ix2 (0 : Fin 1) n) = bs (ix2 g h) := by
  unfold biasRow
  refine shapeCast_apply _ shapeCasts_S4x1024_S1x4096 (ix2 (0 : Fin 1) n) (ix2 g h) ?_
  rewrite [Shape.rowMajor_val_two, Shape.rowMajor_val_two]
  show g.val * 1024 + h.val = 0 * 4096 + n.val
  omega

variable (m : (ℓ : Loc nD τ sig) → Buf (Elt Ideal) ℓ)

/-- The weight window's array, as the region finds it, is the stack of the two argument weight arrays. -/
theorem V_weights (c : Dev nD) :
    (V m c main_v5 : S2048x4096.Idx → EReal) = stacked (m ((c : Thread nD τ).loc main_arg3)) (m ((c : Thread nD τ).loc main_arg5)) := by
  dsimp only [Gen.V, Gen.hostOps0]
  after_results
  rfl

/-- The bias window's array, as the region finds it, is the argument bias as one row. -/
theorem V_bias (c : Dev nD) :
    (V m c main_v6 : S1x4096.Idx → EReal) = biasRow (m ((c : Thread nD τ).loc main_arg4)) := by
  dsimp only [Gen.V, Gen.hostOps0]
  after_results
  rfl

end Cert.KernelIdeal.Cell

end
-- ==== Proof.CellBlocks.lean ====
/-
  From blocks to arrays: what the two result arrays hold after the kernel's run.

  The grid has 64 points; point `t` stages rows 256·t … 256·t + 255 of `x`, `hprev` and `cprev`, the whole stacked weights
  and the whole bias row, and writes back rows 256·t … 256·t + 255 of the two results. An element (p, q) of point `t`'s
  block is therefore element (256·t + p, q) of the arrays, and gate g's weight and bias slice is read at columns
  g·1024 + q. With the body's arithmetic at an element and the layout of the stacked weights, the block point `t` writes
  back is block `t` of the specification's arrays; the 64 blocks cover every row, so each result array ends as the
  specification's whole array.
-/
import proofs.«135091_j66984309948631_2_alg».proof.Proof.Gen.KernelIdeal.Value
import proofs.«135091_j66984309948631_2_alg».proof.Proof.GateAt
import proofs.«135091_j66984309948631_2_alg».proof.Proof.StackedWeights

set_option maxRecDepth 16384

noncomputable section

open scoped BigOperators

namespace Cert.KernelIdeal.Cell

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' block indices at a point, decided over the 64 points: the batch-tiled windows are at block row `t`,
    column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The weight and bias windows stay at block (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem lt64 (t : Fin cfg0.N) : t.val < 64 := Nat.lt_of_lt_of_eq t.isLt N_0

/-- The array row of row `p` of point `t`'s block. -/
def rowOf (t : Fin cfg0.N) (p : Fin 256) : Fin 16384 :=
  ⟨t.val * 256 + p.val, by have := lt64 t; have := p.isLt; omega⟩

/-! ## The input blocks as the arguments -/

/-- Window 0's block at point `t` is rows 256·t … 256·t + 255 of its argument. -/
theorem iblk0_at (c : Dev nD) (t : Fin cfg0.N) (p : Fin 256) (k : Fin 1024) :
    (iblk m c 0 t : Vec Ideal S256x1024 .f32) (ix2 p k) = ((m ((c : Thread nD τ).loc main_arg0)) : S16384x1024.Idx → EReal) (ix2 (rowOf t p) k) := by
  have e0 := (idx_rows t).1
  have e1 := (idx_rows t).2.1
  unfold iblk
  rw [View.read_apply]
  show V m c main_arg0 _ = _
  rw [V_main_arg0]
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- Window 1's block at point `t` is rows 256·t … 256·t + 255 of its argument. -/
theorem iblk1_at (c : Dev nD) (t : Fin cfg0.N) (p : Fin 256) (k : Fin 1024) :
    (iblk m c 1 t : Vec Ideal S256x1024 .f32) (ix2 p k) = ((m ((c : Thread nD τ).loc main_arg1)) : S16384x1024.Idx → EReal) (ix2 (rowOf t p) k) := by
  have e0 := (idx_rows t).2.2.1
  have e1 := (idx_rows t).2.2.2.1
  unfold iblk
  rw [View.read_apply]
  show V m c main_arg1 _ = _
  rw [V_main_arg1]
  congr 1
  funext a
  apply Fin.ext
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- Window 2's block at point `t` is rows 256·t … 256·t + 255 of its argument. -/
theorem iblk2_at (c : Dev nD) (t : Fin cfg0.N) (p : Fin 256) (k : Fin 1024) :
    (iblk m c 2 t : Vec Ideal S256x1024 .f32) (ix2 p k) = ((m ((c : Thread nD τ).loc main_arg2)) : S16384x1024.Idx → EReal) (ix2 (rowOf t p) k) := by
  have e0 := (idx_rows t).2.2.2.2.1
  have e1 := (idx_rows t).2.2.2.2.2.1
  unfold iblk
  rw [View.read_apply]
  show V m c main_arg2 _ = _
  rw [V_main_arg2]
  congr 1
  funext a
  apply Fin.ext
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The weight window's one block is the whole stacked array. -/
theorem iblk3_at (c : Dev nD) (t : Fin cfg0.N) (k : Fin 2048) (n : Fin 4096) :
    (iblk m c 3 t : Vec Ideal S2048x4096 .bf16) (ix2 k n) = stacked (m ((c : Thread nD τ).loc main_arg3)) (m ((c : Thread nD τ).loc main_arg5)) (ix2 k n) := by
  have e0 := (idx_whole t).1
  have e1 := (idx_whole t).2.1
  unfold iblk
  rw [View.read_apply]
  show (V m c main_v5 : S2048x4096.Idx → EReal) _ = _
  rw [V_weights]
  congr 1
  funext a
  apply Fin.ext
  match a with
  | ⟨0, _⟩ => show win0_3.index t (0 : Fin 2) * 2048 + 1 * k.val = k.val; rw [e0]; omega
  | ⟨1, _⟩ => show win0_3.index t (1 : Fin 2) * 4096 + 1 * n.val = n.val; rw [e1]; omega

/-- The bias window's one block is the whole bias row. -/
theorem iblk4_at (c : Dev nD) (t : Fin cfg0.N) (n : Fin 4096) :
    (iblk m c 4 t : Vec Ideal S1x4096 .f32) (ix2 (0 : Fin 1) n) = biasRow (m ((c : Thread nD τ).loc main_arg4)) (ix2 (0 : Fin 1) n) := by
  have e0 := (idx_whole t).2.2.1
  have e1 := (idx_whole t).2.2.2
  unfold iblk
  rw [View.read_apply]
  show (V m c main_v6 : S1x4096.Idx → EReal) _ = _
  rw [V_bias]
  congr 1
  funext a
  apply Fin.ext
  match a with
  | ⟨0, _⟩ => show win0_4.index t (0 : Fin 2) * 1 + 1 * 0 = 0; rw [e0]
  | ⟨1, _⟩ => show win0_4.index t (1 : Fin 2) * 4096 + 1 * n.val = n.val; rw [e1]; omega

/-! ## A column slice of the weights and of the bias row -/

/-- A [2048, 1024] load at column offset `o` of the [2048, 4096] block reads column o + q. -/
theorem ldW_at (X : Vec Ideal S2048x4096 .bf16) (o : Nat) (inb : ∀ a, (![0, o] : Fin 2 → Nat) a + S2048x1024.size a ≤ S2048x4096.size a)
    (k : Fin 2048) (q : Fin 1024) (n : Fin 4096) (hn : n.val = o + q.val) :
    View.ld X (Rect.unit (s := S2048x4096) ![0, o] S2048x1024.size inb) (ix2 k q) = X (ix2 k n) := by
  show X _ = X _
  congr 1
  funext a
  apply Fin.ext
  match a with
  | ⟨0, _⟩ => show 0 + 1 * k.val = k.val; omega
  | ⟨1, _⟩ => show o + 1 * q.val = n.val; omega

/-- A [1, 1024] load at column offset `o` of the [1, 4096] bias row reads column o + q. -/
theorem ldB_at (X : Vec Ideal S1x4096 .f32) (o : Nat) (inb : ∀ a, (![0, o] : Fin 2 → Nat) a + S1x1024.size a ≤ S1x4096.size a)
    (q : Fin 1024) (n : Fin 4096) (hn : n.val = o + q.val) :
    View.ld X (Rect.unit (s := S1x4096) ![0, o] S1x1024.size inb) (ix2 (0 : Fin 1) q) = X (ix2 (0 : Fin 1) n) := by
  show X _ = X _
  congr 1
  funext a
  apply Fin.ext
  match a with
  | ⟨0, _⟩ => rfl
  | ⟨1, _⟩ => show o + 1 * q.val = n.val; omega

/-! ## A gate's pre-activation on a block is the specification's -/

/-- Gate `g` at element (p, q) of point `t`'s block, from the weight slice `w` and bias slice `bv` at columns g·1024 + q. -/
theorem gate_block (c : Dev nD) (t : Fin cfg0.N) (p : Fin 256) (q : Fin 1024) (g : Fin 4) (n : Fin 4096)
    (hn : n.val = g.val * 1024 + q.val) (w : Vec Ideal S2048x1024 .bf16) (bv : Vec Ideal S1x1024 .f32)
    (hw : ∀ k : Fin 2048, w (ix2 k q) = (iblk m c 3 t : Vec Ideal S2048x4096 .bf16) (ix2 k n))
    (hb : bv (ix2 (0 : Fin 1) q) = (iblk m c 4 t : Vec Ideal S1x4096 .f32) (ix2 (0 : Fin 1) n)) :
    gateSum (iblk m c 0 t) (iblk m c 1 t) w bv p q = Cert.LstmCell.gatePre (m ((c : Thread nD τ).loc main_arg0)) (m ((c : Thread nD τ).loc main_arg1)) (m ((c : Thread nD τ).loc main_arg3)) (m ((c : Thread nD τ).loc main_arg5)) (m ((c : Thread nD τ).loc main_arg4)) g (rowOf t p) q := by
  unfold gateSum Cert.LstmCell.gatePre
  refine congrArg₂ (· + ·) (congrArg₂ (· + ·) (Finset.sum_congr rfl fun k _ => ?_) (Finset.sum_congr rfl fun k _ => ?_)) ?_
  · rw [hw, iblk3_at, stacked_top _ _ k n g q hn, iblk0_at]
  · rw [hw, iblk3_at, stacked_bot _ _ k n g q hn, iblk1_at]
  · rw [hb, iblk4_at, biasRow_at _ n g q hn]

/-! ## What a point stores, element by element -/

/-- The new cell state point `t` computes at (p, q) is the specification's at row 256·t + p. -/
theorem cell_block (c : Dev nD) (t : Fin cfg0.N) (p : Fin 256) (q : Fin 1024) :
    k0_pay3 (F := Ideal) (iblk m c 0 t) (iblk m c 1 t) (View.ld (iblk m c 3 t) r0_1) (View.ld (iblk m c 4 t) r0_2)
        (View.ld (iblk m c 3 t) r0_3) (View.ld (iblk m c 4 t) r0_4) (View.ld (iblk m c 3 t) r0_5) (View.ld (iblk m c 4 t) r0_6)
        (iblk m c 2 t) (ix2 p q)
      = Cert.LstmCell.newCell (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (rowOf t p) q := by
  refine (cell_at (iblk m c 0 t) (iblk m c 1 t) (View.ld (iblk m c 3 t) r0_1) (View.ld (iblk m c 4 t) r0_2)
        (View.ld (iblk m c 3 t) r0_3) (View.ld (iblk m c 4 t) r0_4) (View.ld (iblk m c 3 t) r0_5) (View.ld (iblk m c 4 t) r0_6)
        (iblk m c 2 t) p q).trans ?_
  unfold Cert.LstmCell.newCell
  have hq := q.isLt
  rw [gate_block m c t p q 1 ⟨1024 + q.val, by omega⟩ (by show 1024 + q.val = 1 * 1024 + q.val; omega) _ _
      (fun k => ldW_at _ 1024 _ k q _ rfl) (ldB_at _ 1024 _ q _ rfl),
    gate_block m c t p q 0 ⟨0 + q.val, by omega⟩ (by show 0 + q.val = 0 * 1024 + q.val; omega) _ _
      (fun k => ldW_at _ 0 _ k q _ rfl) (ldB_at _ 0 _ q _ rfl),
    gate_block m c t p q 2 ⟨2048 + q.val, by omega⟩ (by show 2048 + q.val = 2 * 1024 + q.val; omega) _ _
      (fun k => ldW_at _ 2048 _ k q _ rfl) (ldB_at _ 2048 _ q _ rfl),
    iblk2_at]

/-- The new hidden state point `t` computes at (p, q) is the specification's at row 256·t + p. -/
theorem hidden_block (c : Dev nD) (t : Fin cfg0.N) (p : Fin 256) (q : Fin 1024) :
    k0_pay1 (F := Ideal) (k0_pay2 (iblk m c 0 t) (iblk m c 1 t))
        (k0_pay3 (iblk m c 0 t) (iblk m c 1 t) (View.ld (iblk m c 3 t) r0_1) (View.ld (iblk m c 4 t) r0_2)
          (View.ld (iblk m c 3 t) r0_3) (View.ld (iblk m c 4 t) r0_4) (View.ld (iblk m c 3 t) r0_5) (View.ld (iblk m c 4 t) r0_6)
          (iblk m c 2 t))
        (k0_pay4 (View.ld (iblk m c 3 t) r0_7)) (View.ld (iblk m c 4 t) r0_8) (ix2 p q)
      = Cert.LstmCell.newHidden (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (rowOf t p) q := by
  refine (hidden_at (iblk m c 0 t) (iblk m c 1 t) _ (View.ld (iblk m c 3 t) r0_7) (View.ld (iblk m c 4 t) r0_8) p q).trans ?_
  unfold Cert.LstmCell.newHidden
  have hq := q.isLt
  rw [gate_block m c t p q 3 ⟨3072 + q.val, by omega⟩ (by show 3072 + q.val = 3 * 1024 + q.val; omega) _ _
      (fun k => ldW_at _ 3072 _ k q _ rfl) (ldB_at _ 3072 _ q _ rfl),
    cell_block]

/-! ## The result arrays -/

/-- The specification's new hidden state of the argument arrays. -/
abbrev hiddenOut (c : Dev nD) : S16384x1024.Idx → EReal := Cert.LstmCell.hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))
/-- The specification's new cell state of the argument arrays. -/
abbrev cellOut (c : Dev nD) : S16384x1024.Idx → EReal := Cert.LstmCell.cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))

/-- Element (p, q) of an output block at point `t` sits at (256·t + p, q) of the array. -/
theorem emb5 (t : Fin cfg0.N) (p : Fin 256) (q : Fin 1024) :
    ((cfg0.win 5).blk t).view.emb (ix2 p q) = (ix2 (rowOf t p) q : S16384x1024.Idx) := by
  have e0 := (idx_rows t).2.2.2.2.2.2.1
  have e1 := (idx_rows t).2.2.2.2.2.2.2.1
  funext a
  apply Fin.ext
  match a with
  | ⟨0, _⟩ => show win0_5.index t (0 : Fin 2) * 256 + 1 * p.val = t.val * 256 + p.val; rw [e0]; omega
  | ⟨1, _⟩ => show win0_5.index t (1 : Fin 2) * 1024 + 1 * q.val = q.val; rw [e1]; omega
theorem emb6 (t : Fin cfg0.N) (p : Fin 256) (q : Fin 1024) :
    ((cfg0.win 6).blk t).view.emb (ix2 p q) = (ix2 (rowOf t p) q : S16384x1024.Idx) := by
  have e0 := (idx_rows t).2.2.2.2.2.2.2.2.1
  have e1 := (idx_rows t).2.2.2.2.2.2.2.2.2
  funext a
  apply Fin.ext
  match a with
  | ⟨0, _⟩ => show win0_6.index t (0 : Fin 2) * 256 + 1 * p.val = t.val * 256 + p.val; rw [e0]; omega
  | ⟨1, _⟩ => show win0_6.index t (1 : Fin 2) * 1024 + 1 * q.val = q.val; rw [e1]; omega

/-- What point `t` writes back to the hidden-state array is block `t` of the specification's hidden state. -/
theorem flushed5_eq (c : Dev nD) (t : Fin cfg0.N) :
    (dats m 0 c).flushed 5 t = ((cfg0.win 5).blk t).view.read (Elt Ideal) (hiddenOut m c) := by
  rw [Value.flushed5]
  unfold out0_5
  rw [View.canon_unit_zero hz]
  simp only [View.ld_unit_zero (S := S256x1024) hz]
  funext j
  obtain ⟨p, q, rfl⟩ : ∃ (p : Fin 256) (q : Fin 1024), j = ix2 p q := ⟨j 0, j 1, eq_ix2 j⟩
  show k0_pay1 (F := Ideal) (k0_pay2 (iblk m c 0 t) (iblk m c 1 t))
        (k0_pay3 (iblk m c 0 t) (iblk m c 1 t) (View.ld (iblk m c 3 t) r0_1) (View.ld (iblk m c 4 t) r0_2)
          (View.ld (iblk m c 3 t) r0_3) (View.ld (iblk m c 4 t) r0_4) (View.ld (iblk m c 3 t) r0_5) (View.ld (iblk m c 4 t) r0_6)
          (iblk m c 2 t))
        (k0_pay4 (View.ld (iblk m c 3 t) r0_7)) (View.ld (iblk m c 4 t) r0_8) (ix2 p q)
      = hiddenOut m c (((cfg0.win 5).blk t).view.emb (ix2 p q))
  rw [emb5, hidden_block]
  rfl

/-- What point `t` writes back to the cell-state array is block `t` of the specification's cell state. -/
theorem flushed6_eq (c : Dev nD) (t : Fin cfg0.N) :
    (dats m 0 c).flushed 6 t = ((cfg0.win 6).blk t).view.read (Elt Ideal) (cellOut m c) := by
  rw [Value.flushed6]
  unfold out0_6
  rw [View.canon_unit_zero hz]
  simp only [View.ld_unit_zero (S := S256x1024) hz]
  funext j
  obtain ⟨p, q, rfl⟩ : ∃ (p : Fin 256) (q : Fin 1024), j = ix2 p q := ⟨j 0, j 1, eq_ix2 j⟩
  show k0_pay3 (F := Ideal) (iblk m c 0 t) (iblk m c 1 t) (View.ld (iblk m c 3 t) r0_1) (View.ld (iblk m c 4 t) r0_2)
          (View.ld (iblk m c 3 t) r0_3) (View.ld (iblk m c 4 t) r0_4) (View.ld (iblk m c 3 t) r0_5) (View.ld (iblk m c 4 t) r0_6)
          (iblk m c 2 t) (ix2 p q)
      = cellOut m c (((cfg0.win 6).blk t).view.emb (ix2 p q))
  rw [emb6, cell_block]
  rfl

/-! ## The cover: every row lies in the block of the point that is its number divided by 256 -/

theorem mem_blk5 (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v7_0).slice (win0_5.rect t)).set ↔ _
  rw [View.set_slice_whole, Rect.mem_set_unit]
  exact Iff.rfl
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_1).slice (win0_6.rect t)).set ↔ _
  rw [View.set_slice_whole, Rect.mem_set_unit]
  exact Iff.rfl

theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  have e0 := (idx_rows t).2.2.2.2.2.2.1
  have e1 := (idx_rows t).2.2.2.2.2.2.2.1
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; rw [e0]; omega
  | ⟨1, _⟩ => show win0_5.index t (1 : Fin 2) * 1024 ≤ (i 1).val ∧ (i 1).val < win0_5.index t (1 : Fin 2) * 1024 + 1024; rw [e1]; omega

theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  have e0 := (idx_rows t).2.2.2.2.2.2.2.2.1
  have e1 := (idx_rows t).2.2.2.2.2.2.2.2.2
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e0]; omega
  | ⟨1, _⟩ => show win0_6.index t (1 : Fin 2) * 1024 ≤ (i 1).val ∧ (i 1).val < win0_6.index t (1 : Fin 2) * 1024 + 1024; rw [e1]; omega

/-- The hidden-state array after the run is the specification's. -/
theorem final5 (c : Dev nD) : (dats m 0 c).arrAt 5 cfg0.N = hiddenOut m c :=
  (dats m 0 c).arrAt_eq_of_cover 5 (hiddenOut m c) (fun t _ => flushed5_eq m c t) cover5

/-- The cell-state array after the run is the specification's. -/
theorem final6 (c : Dev nD) : (dats m 0 c).arrAt 6 cfg0.N = cellOut m c :=
  (dats m 0 c).arrAt_eq_of_cover 6 (cellOut m c) (fun t _ => flushed6_eq m c t) cover6

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v7_0) = hiddenOut m c
      ∧ r.2.mem ((c : Thread nD τ).loc main_v7_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2⟩)
    (Cert.KernelIdeal.Value.run_blocks m ρ)

end Cert.KernelIdeal.Cell

end
-- ==== Proof.lean ====
/-
  One step of an LSTM cell — a batch-tiled kernel against its whole-array reference — equal on the extended reals.

  Both programs take x, hprev, cprev : [16384, 1024], stacked gate weights Wi, Wh : [4, 1024, 1024] (gate, hidden unit,
  contracted input) and a stacked bias [4, 1024], and return (hnew, hnew, cnew) with, for batch row b and hidden unit h,
      pre g   = Σ_k Wi[g,h,k] · x[b,k] + Σ_k Wh[g,h,k] · hprev[b,k] + bias[g,h],
      cnew    = σ(pre 1) · cprev[b,h] + σ(pre 0) · tanh(pre 2),
      hnew    = σ(pre 3) · tanh(cnew).
  (Proof/CellSpec.lean states this once, as functions of the argument arrays.)

  The reference computes the two contractions for all four gates at once, adds them and the broadcast bias, slices the
  gates apart and spells σ as 1 / (1 + exp(−p)) (Proof/RefCell.lean). The kernel tiles the batch into 64 blocks of 256
  rows; for each block it concatenates the rows of x and hprev along the lanes and multiplies them, gate by gate, with
  a 1024-column slice of the two weight arrays stacked along the contraction axis, adds the bias slice and applies
  σ / tanh (Proof/GateAt.lean for the arithmetic at an element, Proof/StackedWeights.lean for the stacked layout,
  Proof/CellBlocks.lean for the passage from blocks to arrays). On the extended reals the narrowing of the matrix
  operands to bf16 is the identity, the kernel's σ is the reference's expression, and the one law joining the two sides
  is that a 2048-term dot product of two concatenations is the sum of the two 1024-term dot products — associativity and
  commutativity only, so the finiteness precondition is not used by the value claim.

  The three frames are the generated frame proofs (the reference's is its generated run with the results dropped); the
  idealization rewrote no operation, so `preserves` is trivial.
-/
import proofs.«135091_j66984309948631_2_alg».proof.Defs
import proofs.«135091_j66984309948631_2_alg».proof.Proof.Gen.Kernel
import proofs.«135091_j66984309948631_2_alg».proof.Proof.Gen.Kernel.Skeleton
import proofs.«135091_j66984309948631_2_alg».proof.Proof.Gen.Kernel.Launch
import proofs.«135091_j66984309948631_2_alg».proof.Proof.Gen.Kernel.Points
import proofs.«135091_j66984309948631_2_alg».proof.Proof.Gen.Kernel.Frame
import proofs.«135091_j66984309948631_2_alg».proof.Proof.Gen.KernelIdeal
import proofs.«135091_j66984309948631_2_alg».proof.Proof.Gen.KernelIdeal.Skeleton
import proofs.«135091_j66984309948631_2_alg».proof.Proof.Gen.KernelIdeal.Launch
import proofs.«135091_j66984309948631_2_alg».proof.Proof.Gen.KernelIdeal.Points
import proofs.«135091_j66984309948631_2_alg».proof.Proof.Gen.KernelIdeal.Frame
import proofs.«135091_j66984309948631_2_alg».proof.Proof.Gen.ReferenceIdeal
import proofs.«135091_j66984309948631_2_alg».proof.Proof.Gen.Pre_finite_inputs
import proofs.«135091_j66984309948631_2_alg».proof.Proof.Gen.KernelIdeal.Value
import proofs.«135091_j66984309948631_2_alg».proof.Proof.Gen.ReferenceIdeal.Run
import proofs.«135091_j66984309948631_2_alg».proof.Proof.Gen.ReferenceIdeal.Read
import proofs.«135091_j66984309948631_2_alg».proof.Proof.CellSpec
import proofs.«135091_j66984309948631_2_alg».proof.Proof.RefCell
import proofs.«135091_j66984309948631_2_alg».proof.Proof.GateAt
import proofs.«135091_j66984309948631_2_alg».proof.Proof.StackedWeights
import proofs.«135091_j66984309948631_2_alg».proof.Proof.CellBlocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs end with the specification's hidden state (twice) and cell state of the arguments they agree on. -/
theorem algebraic : Cert.algebraic_KernelIdeal_ReferenceIdeal := by
  intro m ρ m' ρ' _ hagree
  refine ⟨fun c => Cert.KernelIdeal.Cell.hiddenOut m c, fun c => Cert.KernelIdeal.Cell.hiddenOut m c,
    fun c => Cert.KernelIdeal.Cell.cellOut m c, ?_, ?_⟩
  · exact (θ_run Cert.KernelIdeal.defs _ _).mono (fun _ h c => ⟨(h c).1, (h c).1, (h c).2.1, (h c).2.2⟩)
      (Cert.KernelIdeal.Cell.run m ρ)
  · refine (θ_run Cert.ReferenceIdeal.defs _ _).mono (fun _ h c => ?_) (Cert.ReferenceIdeal.Value.run (F := Ideal) m' ρ')
    obtain ⟨h0, h1, h2, hrest⟩ := h c
    obtain ⟨a0, a1, a2, a3, a4, a5⟩ := hagree c
    have eh : Cert.ReferenceIdeal.Value.res_main_v39 m' c = Cert.KernelIdeal.Cell.hiddenOut m c := by
      rw [Cert.ReferenceIdeal.Read.val_main_v39_eq, Cert.ReferenceIdeal.RefValue.hidden_eq, a0, a1, a2, a3, a4, a5]
    refine ⟨h0.trans eh, h1.trans eh, h2.trans ?_, hrest⟩
    rw [Cert.ReferenceIdeal.Read.val_main_v37_eq, Cert.ReferenceIdeal.RefValue.cell_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
